-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_arg2)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S8192x1024 .f32) (main_arg1 : FVec F S2048x1024 .f32) (main_arg2 : FVec F S2048x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Kernel.lean ====
abbrev S8192x1024 : Shape := ⟨2, ![8192, 1024]⟩
abbrev S2048x1024 : Shape := ⟨2, ![2048, 1024]⟩
abbrev S_ : Shape := ⟨0, ![]⟩
abbrev S2048 : Shape := ⟨1, ![2048]⟩
abbrev S1x2048 : Shape := ⟨2, ![1, 2048]⟩
abbrev S8192x2048 : Shape := ⟨2, ![8192, 2048]⟩
abbrev S1024x1024 : Shape := ⟨2, ![1024, 1024]⟩
abbrev S512x1024 : Shape := ⟨2, ![512, 1024]⟩
abbrev S1x512 : Shape := ⟨2, ![1, 512]⟩
abbrev S1024x512 : Shape := ⟨2, ![1024, 512]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S2048x1024_S2048_d1 : S2048x1024.ReducesTo [1] S2048
  h_S_ : 0 < S_.numel
  shapeCasts_S2048_S1x2048 : S2048.ShapeCasts S1x2048
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .f32 = 32 ∨ (Rect.block (s := S2048x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x1024.size a
  hwx0_2 : ∀ i : grid0.Coords, EltTy.bits .f32 = 32 ∨ (Rect.block (s := S2048x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x2048.size a
  hwx0_4 : ∀ i : grid0.Coords, EltTy.bits .f32 = 32 ∨ (Rect.block (s := S8192x2048) S1024x512.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S8192x2048 : Shape := ⟨2, ![8192, 2048]⟩
abbrev S_ : Shape := ⟨0, ![]⟩
abbrev S2048 : Shape := ⟨1, ![2048]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048x1024, .f32⟩
  | .hbm, ⟨3, _⟩ => ⟨S8192x1024, .f32⟩
  | .hbm, ⟨4, _⟩ => ⟨S8192x2048, .f32⟩
  | .hbm, ⟨5, _⟩ => ⟨S2048x1024, .f32⟩
  | .hbm, ⟨6, _⟩ => ⟨S8192x2048, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x1024_S2048x1024_S8192x2048_1_1_0_0_n_n_wf : DotDims.WF S8192x1024 S2048x1024 S8192x2048 [1] [1] [0] [0] [] []

variable [Facts₀]

def dot_S8192x1024_S2048x1024_S8192x2048_1_1_0_0_n_n : DotDims S8192x1024 S2048x1024 S8192x2048 where
  lhsContracting := [1]
  rhsContracting := [1]
  lhsNonContracting := [0]
  rhsNonContracting := [0]
  lhsBatch := []
  rhsBatch := []
  wf := dot_S8192x1024_S2048x1024_S8192x2048_1_1_0_0_n_n_wf

class Facts : Prop extends Facts₀ where

variable [Facts]
-- ==== Proof.NegDist.lean ====
/-
  The quantity both programs compute, and the one law that joins their two arrangements of it.

  For a batch row `b` and a class `i` the result is the NEGATED diagonal Mahalanobis distance with the square
  expanded,

      - ( ( Σ_d x[b,d]·x[b,d] · σ[i,d]  -  2 · Σ_d x[b,d] · (σ[i,d]·c[i,d]) )  +  κ[i] ),

  where `κ[i]` is the per-class constant `Σ_d (σ[i,d]·c[i,d])·c[i,d]`, which both programs obtain by the same host sum
  and which therefore stays an unopened vector here. The reference scales the whole cross sum by `2`; the kernel puts
  the `2` on `σ` before the contraction, summing `x[b,d] · ((2·σ[i,d])·c[i,d])`. On the extended reals the product is
  commutative and associative, and a factor that is a NON-NEGATIVE REAL distributes over any finite sum (the
  infinities included: `2·(⊤ + ⊥) = ⊥ = 2·⊤ + 2·⊥`), so the two cross terms are equal for ALL extended-real inputs;
  no finiteness of the inputs is used. The kernel writes the final negation as `0 - y`, which is `-y`.
-/
import Idealize.ShloMosaic.PureOps.Ideal
import Idealize.ShloMosaic.Lib.ValueIdx

noncomputable section

open scoped BigOperators

namespace Cert.Mahal

open Idealize.ShloMosaic Idealize.ShloMosaic.ValueIdx

/-! ## The factor `2` -/

/-- The factor both programs spell as the f32 word of `2.0`, as the extended real it denotes. -/
abbrev two : EReal := Ideal.ofBits .f32 0x40000000#32

/-- That word denotes the real number `2`: sign `+`, exponent field `128`, fraction `0`, so `2^23 · 2^(128-127-23)`. -/
theorem two_eq : two = ((2 : ℝ) : EReal) := by
  simp [two, Ideal.ofBits, Ideal.ieee, -EReal.coe_mul]; norm_num

theorem two_nonneg : 0 ≤ two := by
  rw [two_eq]; exact_mod_cast (by norm_num : (0 : ℝ) ≤ 2)

theorem two_ne_top : two ≠ ⊤ := by
  rw [two_eq]; exact EReal.coe_ne_top _

/-! ## The law -/

/-- A non-negative finite factor distributes over a finite sum of extended reals, whatever the summands. -/
theorem mul_sum_of_nonneg {ι : Type*} (s : Finset ι) (a : EReal) (ha : 0 ≤ a) (ha' : a ≠ ⊤) (f : ι → EReal) :
    a * ∑ k ∈ s, f k = ∑ k ∈ s, a * f k := by
  classical
  refine Finset.induction_on s (by simp) (fun i s hi ih => ?_)
  rw [Finset.sum_insert hi, Finset.sum_insert hi, EReal.left_distrib_of_nonneg_of_ne_top ha ha', ih]

/-- The kernel's cross term is the reference's: the factor moved from `σ` to the front of each product, then out of
    the sum. -/
theorem cross_scaled {ι : Type*} [Fintype ι] (x s c : ι → EReal) :
    ∑ k, x k * ((two * s k) * c k) = two * ∑ k, x k * (s k * c k) := by
  rw [mul_sum_of_nonneg _ _ two_nonneg two_ne_top]
  refine Finset.sum_congr rfl fun k _ => ?_
  rw [mul_assoc two, mul_left_comm]

/-- Subtracting from zero is negating, on every extended real. -/
theorem zero_sub_eq_neg (y : EReal) : (0 : EReal) - y = -y := by
  rw [sub_eq_add_neg, zero_add]

/-! ## The result, entry by entry -/

/-- Entry `(b, i)` of the result, from the three argument arrays and the vector `κ` of per-class constants. -/
def negDistAt (X : (⟨2, ![8192, 1024]⟩ : Shape).Idx → EReal) (Cn Sg : (⟨2, ![2048, 1024]⟩ : Shape).Idx → EReal)
    (Kp : (⟨1, ![2048]⟩ : Shape).Idx → EReal) (b : Fin 8192) (i : Fin 2048) : EReal :=
  -(((∑ k : Fin 1024, (X (ix2 b k) * X (ix2 b k)) * Sg (ix2 i k))
      - two * ∑ k : Fin 1024, X (ix2 b k) * (Sg (ix2 i k) * Cn (ix2 i k)))
    + Kp (ix1 i))

/-- The whole result array. -/
def negDist (X : (⟨2, ![8192, 1024]⟩ : Shape).Idx → EReal) (Cn Sg : (⟨2, ![2048, 1024]⟩ : Shape).Idx → EReal)
    (Kp : (⟨1, ![2048]⟩ : Shape).Idx → EReal) : (⟨2, ![8192, 2048]⟩ : Shape).Idx → EReal :=
  fun j => negDistAt X Cn Sg Kp (j 0) (j 1)

/-- The kernel's arrangement of entry `(b, i)` — zero minus, the factor inside the contraction — is `negDistAt`. -/
theorem kernelForm_eq (X : (⟨2, ![8192, 1024]⟩ : Shape).Idx → EReal) (Cn Sg : (⟨2, ![2048, 1024]⟩ : Shape).Idx → EReal)
    (Kp : (⟨1, ![2048]⟩ : Shape).Idx → EReal) (b : Fin 8192) (i : Fin 2048) :
    (0 : EReal) - (((∑ k : Fin 1024, (X (ix2 b k) * X (ix2 b k)) * Sg (ix2 i k))
        - ∑ k : Fin 1024, X (ix2 b k) * ((two * Sg (ix2 i k)) * Cn (ix2 i k)))
      + Kp (ix1 i))
    = negDistAt X Cn Sg Kp b i := by
  rw [zero_sub_eq_neg, cross_scaled (fun k => X (ix2 b k)) (fun k => Sg (ix2 i k)) (fun k => Cn (ix2 i k))]
  rfl

end Cert.Mahal

end
-- ==== Proof.RefValue.lean ====
/-
  The reference's result, read entry by entry, is the negated expanded distance `Cert.Mahal.negDist` of its three
  arguments and of its own per-class constant vector.

  Entry `(b, i)` of the reference is the negation of: the contraction over `d` of `(x·x)[b,d]` with `σ[i,d]`, minus
  the splat `2` times the contraction of `x[b,d]` with `(σ·c)[i,d]`, plus the per-class constant broadcast first to a
  row and then down the batch axis. Each contraction is the sum over the 1024 features of the products of the two
  operands' rows `b` and `i`; the two broadcasts read the constant vector at `i`.
-/
import proofs.«163793_j89008902242835_2_alg».proof.Proof.Gen.ReferenceIdeal.Read
import proofs.«163793_j89008902242835_2_alg».proof.Proof.NegDist

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The last stage of the reference is `negDist` of the arguments (`x0` the batch, `x1` the centers, `x2` the
    inverse variances) and of the stage that holds the per-class constants. -/
theorem result_eq (x0 : (⟨S8192x1024, .f32⟩ : BufTy).Contents (Elt Ideal)) (x1 x2 : (⟨S2048x1024, .f32⟩ : BufTy).Contents (Elt Ideal)) :
    val_main_v13 (F := Ideal) x0 x1 x2 = Cert.Mahal.negDist x0 x1 x2 (val_main_v6 (F := Ideal) x1 x2) := by
  funext i
  -- the rows the two contractions read: row `b` of the left operand, row `i` of the right one
  have el1 : ∀ k : Fin 1024, lidx_main_v1 i k = ix2 (i 0) k := fun k => funext fun a => by
    match a with | ⟨0, _⟩ => rfl | ⟨1, _⟩ => rfl
  have er1 : ∀ k : Fin 1024, ridx_main_v1 i k = ix2 (i 1) k := fun k => funext fun a => by
    match a with | ⟨0, _⟩ => rfl | ⟨1, _⟩ => rfl
  have el3 : ∀ k : Fin 1024, lidx_main_v3 i k = ix2 (i 0) k := fun k => funext fun a => by
    match a with | ⟨0, _⟩ => rfl | ⟨1, _⟩ => rfl
  have er3 : ∀ k : Fin 1024, ridx_main_v3 i k = ix2 (i 1) k := fun k => funext fun a => by
    match a with | ⟨0, _⟩ => rfl | ⟨1, _⟩ => rfl
  -- the two broadcasts read the constant vector at the class
  have eK : idx_main_v10 (idx_main_v11 i) = ix1 (i 1) := funext fun a => by
    match a with | ⟨0, _⟩ => rfl
  rw [val_main_v13_apply, val_main_v12_apply, val_main_v9_apply, val_main_v1_apply, val_main_v8_apply,
    val_main_v7_apply, val_main_cst_0_apply, val_main_v3_apply, val_main_v11_apply, val_main_v10_apply]
  simp only [el1, er1, el3, er3, eK, val_main_v0_apply, val_main_v2_apply, Ideal.mulf_def, Ideal.addf_def,
    Ideal.subf_def, Ideal.hostNegf_def, Ideal.negf_def, Ideal.ofBits_def]
  rfl

end Cert.ReferenceIdeal.RefValue

end
-- ==== Proof.Point.lean ====
/-
  One entry of what the kernel body stores, as a formula of the four blocks it loads.

  The body loads a block of 1024 batch rows (`x0`), the blocks of 512 classes' inverse variances (`x1`) and centers
  (`x2`), and those classes' constants as one row (`x3`), and stores, at local row `p` and local class `q`,

      0 - ( ( Σ_k (x0[p,k]·x0[p,k])·x1[q,k]  -  Σ_k x0[p,k]·((2·x1[q,k])·x2[q,k]) )  +  x3[0,q] ).

  Both matrix products contract the feature axis of BOTH operands into a zero accumulator, so each is the plain sum
  over the 1024 features of row `p` of the left operand times row `q` of the right one; the narrowing of the operands
  to bf16 is the identity on extended reals; the constants' row is broadcast down the 1024 rows. When the four blocks
  are rows of the whole arrays, the entry is the negated distance `Cert.Mahal.negDistAt` at the global row and class.
-/
import proofs.«163793_j89008902242835_2_alg».proof.Proof.Gen.KernelIdeal.Skeleton
import proofs.«163793_j89008902242835_2_alg».proof.Proof.NegDist
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Point

open Cert.KernelIdeal Cert.KernelIdeal.Gen
open Idealize.ShloMosaic Idealize.ShloMosaic.ValueIdx

/-! ## The matrix product's operand indices: row of the output index, and the contracted feature -/

theorem lhs_row (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl

theorem lhs_feat (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q

theorem rhs_row (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl

theorem rhs_feat (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The matrix product into the zero accumulator, at local row `p` and local class `q`: the sum over the features of
    row `p` of the left operand times row `q` of the right one. -/
theorem matmul_rows {φ₁ φ₂ : FTy} (l : FVec Ideal S1024x1024 φ₁) (r : FVec Ideal S512x1024 φ₂) (p : Fin 1024) (q : Fin 512) :
    FloatOps.matmul dot_S1024x1024_S512x1024_S1024x512_1_1_0_0_n_n none l r (constant S1024x512 .f32 0x00000000#32) (ix2 p q)
      = ∑ k : Fin 1024, l (ix2 p k) * r (ix2 q k) := by
  rw [Ideal.matmul_constant_zero_apply,
    ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p q)
      ((contrEquiv1 dot_S1024x1024_S512x1024_S1024x512_1_1_0_0_n_n 1024 rfl rfl).symm k) = ix2 p k :=
    funext fun a => Fin.ext (by
      match a with
      | ⟨0, _⟩ => exact lhs_row _ _
      | ⟨1, _⟩ => exact (lhs_feat _ _).trans hk)
  have er : dot_S1024x1024_S512x1024_S1024x512_1_1_0_0_n_n.rhsIdx (ix2 p q)
      ((contrEquiv1 dot_S1024x1024_S512x1024_S1024x512_1_1_0_0_n_n 1024 rfl rfl).symm k) = ix2 q k :=
    funext fun a => Fin.ext (by
      match a with
      | ⟨0, _⟩ => exact rhs_row _ _
      | ⟨1, _⟩ => exact (rhs_feat _ _).trans hk)
  rw [el, er]

/-! ## The stored entry -/

/-- Entry `(p, q)` of the body's stored value, in the blocks' own coordinates. -/
theorem pay_at (x0 : Vec Ideal S1024x1024 .f32) (x1 x2 : Vec Ideal S512x1024 .f32) (x3 : Vec Ideal S1x512 .f32)
    (p : Fin 1024) (q : Fin 512) :
    k0_pay1 (F := Ideal) x0 x1 x2 x3 (ix2 p q)
      = (0 : EReal) - (((∑ k : Fin 1024, (x0 (ix2 p k) * x0 (ix2 p k)) * x1 (ix2 q k))
          - ∑ k : Fin 1024, x0 (ix2 p k) * ((Cert.Mahal.two * x1 (ix2 q k)) * x2 (ix2 q k)))
        + x3 (ix2 (0 : Fin 1) q)) := by
  unfold k0_pay1
  simp only [subf_apply, addf_apply, broadcast_apply, matmul]
  rw [matmul_rows, matmul_rows, shapeCast_self, broadcastTo_1b_ab_apply]
  simp only [truncf_apply, mulf_apply, broadcast_apply]
  rw [show Scalar.ofBits (F := Ideal) .f32 0x00000000#32 = (0 : EReal) from Ideal.ofBits_zero_f32]
  rfl

/-- When the loaded blocks are rows of the whole arrays — local row `p` is batch row `b`, local class `q` is class
    `i` — the stored entry is the negated distance of `b` to class `i`. -/
theorem point_eq (x0 : Vec Ideal S1024x1024 .f32) (x1 x2 : Vec Ideal S512x1024 .f32) (x3 : Vec Ideal S1x512 .f32)
    (X : (⟨2, ![8192, 1024]⟩ : Shape).Idx → EReal) (Cn Sg : (⟨2, ![2048, 1024]⟩ : Shape).Idx → EReal)
    (Kp : (⟨1, ![2048]⟩ : Shape).Idx → EReal) (p : Fin 1024) (q : Fin 512) (b : Fin 8192) (i : Fin 2048)
    (h0 : ∀ k : Fin 1024, x0 (ix2 p k) = X (ix2 b k))
    (h1 : ∀ k : Fin 1024, x1 (ix2 q k) = Sg (ix2 i k))
    (h2 : ∀ k : Fin 1024, x2 (ix2 q k) = Cn (ix2 i k))
    (h3 : x3 (ix2 (0 : Fin 1) q) = Kp (ix1 i)) :
    k0_pay1 (F := Ideal) x0 x1 x2 x3 (ix2 p q) = Cert.Mahal.negDistAt X Cn Sg Kp b i := by
  rw [pay_at, ← Cert.Mahal.kernelForm_eq]
  simp only [h0, h1, h2, h3]

end Cert.KernelIdeal.Point

end
-- ==== Proof.Blocks.lean ====
/-
  From the kernel's blocks to its whole result array.

  The grid has 8 × 4 points; point `(r, s)` loads batch rows `1024·r … 1024·r + 1023`, the inverse variances and
  centers of classes `512·s … 512·s + 511`, and those classes' constants (columns `512·s …` of the one-row array the
  host operations before the call wrote: the per-class sum reshaped to a row), and writes back block `(r, s)` of the
  result. So local entry `(p, q)` of what point `(r, s)` writes is global entry `(1024·r + p, 512·s + q)`, and by the
  entry formula it is the negated distance there. The 32 blocks tile the `8192 × 2048` result (the point covering
  entry `(b, i)` is `(b / 1024, i / 512)`), so after the run the whole array is `Cert.Mahal.negDist` of the three
  arguments and of the per-class constants `kappa`.
-/
import proofs.«163793_j89008902242835_2_alg».proof.Proof.Gen.KernelIdeal.Value
import proofs.«163793_j89008902242835_2_alg».proof.Proof.Point
import Idealize.ShloMosaic.Lib.Pipeline.Value
import Idealize.ShloMosaic.Lib.ValueLayout
import Idealize.ShloMosaic.Lib.StableHlo.Run

noncomputable section

open scoped BigOperators

namespace Cert.KernelIdeal.Blocks

open Cert.KernelIdeal Cert.KernelIdeal.Gen Cert.KernelIdeal.Value
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The per-class constants, and the result -/

/-- The per-class constants: for each class the host's sum over the features of `(σ·c)·c`, from zero. -/
def kappa (c : Dev nD) : (⟨1, ![2048]⟩ : Shape).Idx → EReal :=
  Host.reduceAdd (F := Ideal)
    (mulf (mulf (m ((c : Thread nD τ).loc main_arg2)) (m ((c : Thread nD τ).loc main_arg1))) (m ((c : Thread nD τ).loc main_arg1)))
    (constant S_ .f32 0x00000000#32) reducesTo_S2048x1024_S2048_d1 h_S_

/-- The result array: the negated distances of the batch rows to the classes. -/
def result (c : Dev nD) : Buf (Elt Ideal) ((c : Thread nD τ).loc main_v4) :=
  Cert.Mahal.negDist (m ((c : Thread nD τ).loc main_arg0)) (m ((c : Thread nD τ).loc main_arg1))
    (m ((c : Thread nD τ).loc main_arg2)) (kappa m c)

/-- The one-row array the call's fourth operand stages is the constants' vector reshaped to a row. -/
theorem V_main_v3 (c : Dev nD) :
    (V m c main_v3 : S1x2048.Idx → EReal) = shapeCast S1x2048 (kappa m c) shapeCasts_S2048_S1x2048 := by
  dsimp only [V, hostOps0]
  after_results
  rfl

/-! ## The index maps over the grid -/

/-- The input windows move with the output's block: the batch window with its row block, the two class windows and
    the constants' row with its column block; the other block coordinates are zero. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 3 :=
  (by decide +kernel : ∀ t : Fin grid0.N, _)

/-- Every block of the result is some point's. -/
theorem idx_onto : ∀ (r : Fin 8) (s : Fin 4), ∃ t : Fin cfg0.N, win0_4.index t = ![r.val, s.val] :=
  (by decide +kernel : ∀ (r : Fin 8) (s : Fin 4), ∃ t : Fin grid0.N, win0_4.index t = ![r.val, s.val])

/-! ## The input blocks as rows of the arrays -/

/-- Row `p` of the batch block at point `t` is batch row `b = 1024·(row block) + p`. -/
theorem batch_row (c : Dev nD) (t : Fin cfg0.N) (p k : Fin 1024) (b : Fin 8192)
    (hb : b.val = win0_4.index t (0 : Fin 2) * 1024 + p.val) :
    iblk m c 0 t (ix2 p k) = m ((c : Thread nD τ).loc main_arg0) (ix2 b k) := by
  obtain ⟨e0, e1, -⟩ := idx_facts t
  refine Eq.trans ?_ (congrFun (V_main_arg0 m c) _)
  show V m c main_arg0 (((cfg0.win 0).blk t).view.emb (ix2 p k)) = V m c main_arg0 (ix2 b k)
  refine congrArg _ (funext fun a => Fin.ext ?_)
  match a with
  | ⟨0, _⟩ => show win0_0.index t (0 : Fin 2) * 1024 + 1 * p.val = b.val; omega
  | ⟨1, _⟩ => show win0_0.index t (1 : Fin 2) * 1024 + 1 * k.val = k.val; omega

/-- Row `q` of the inverse-variance block at point `t` is class `i = 512·(column block) + q`. -/
theorem sigma_row (c : Dev nD) (t : Fin cfg0.N) (q : Fin 512) (k : Fin 1024) (i : Fin 2048)
    (hi : i.val = win0_4.index t (1 : Fin 2) * 512 + q.val) :
    iblk m c 1 t (ix2 q k) = m ((c : Thread nD τ).loc main_arg2) (ix2 i k) := by
  obtain ⟨-, -, e0, e1, -⟩ := idx_facts t
  refine Eq.trans ?_ (congrFun (V_main_arg2 m c) _)
  show V m c main_arg2 (((cfg0.win 1).blk t).view.emb (ix2 q k)) = V m c main_arg2 (ix2 i k)
  refine congrArg _ (funext fun a => Fin.ext ?_)
  match a with
  | ⟨0, _⟩ => show win0_1.index t (0 : Fin 2) * 512 + 1 * q.val = i.val; omega
  | ⟨1, _⟩ => show win0_1.index t (1 : Fin 2) * 1024 + 1 * k.val = k.val; omega

/-- Row `q` of the centers block at point `t` is class `i = 512·(column block) + q`. -/
theorem center_row (c : Dev nD) (t : Fin cfg0.N) (q : Fin 512) (k : Fin 1024) (i : Fin 2048)
    (hi : i.val = win0_4.index t (1 : Fin 2) * 512 + q.val) :
    iblk m c 2 t (ix2 q k) = m ((c : Thread nD τ).loc main_arg1) (ix2 i k) := by
  obtain ⟨-, -, -, -, e0, e1, -⟩ := idx_facts t
  refine Eq.trans ?_ (congrFun (V_main_arg1 m c) _)
  show V m c main_arg1 (((cfg0.win 2).blk t).view.emb (ix2 q k)) = V m c main_arg1 (ix2 i k)
  refine congrArg _ (funext fun a => Fin.ext ?_)
  match a with
  | ⟨0, _⟩ => show win0_2.index t (0 : Fin 2) * 512 + 1 * q.val = i.val; omega
  | ⟨1, _⟩ => show win0_2.index t (1 : Fin 2) * 1024 + 1 * k.val = k.val; omega

/-- Column `q` of the constants' block at point `t` is the constant of class `i = 512·(column block) + q`. -/
theorem kappa_col (c : Dev nD) (t : Fin cfg0.N) (q : Fin 512) (i : Fin 2048)
    (hi : i.val = win0_4.index t (1 : Fin 2) * 512 + q.val) :
    iblk m c 3 t (ix2 (0 : Fin 1) q) = kappa m c (ix1 i) := by
  obtain ⟨-, -, -, -, -, -, e0, e1, -⟩ := idx_facts t
  refine Eq.trans ?_ (shapeCast_a_1a_apply (kappa m c) shapeCasts_S2048_S1x2048 (0 : Fin 1) i)
  refine Eq.trans ?_ (congrFun (V_main_v3 m c) _)
  show V m c main_v3 (((cfg0.win 3).blk t).view.emb (ix2 (0 : Fin 1) q)) = V m c main_v3 (ix2 (0 : Fin 1) i)
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * q.val = i.val; omega

/-! ## What a point writes back, the cover, the array -/

/-- What point `t` writes back is block `t` of `result`. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S1024x1024) hz, View.ld_unit_zero (S := S512x1024) hz,
    View.ld_unit_zero (S := S1x512) hz]
  obtain ⟨-, -, -, -, -, -, -, -, l0, l1⟩ := idx_facts t
  funext j
  obtain ⟨p, q, rfl⟩ : ∃ (p : Fin 1024) (q : Fin 512), j = ix2 p q := ⟨j 0, j 1, eq_ix2 j⟩
  have hb : win0_4.index t (0 : Fin 2) * 1024 + p.val < 8192 := by have := p.isLt; omega
  have hi : win0_4.index t (1 : Fin 2) * 512 + q.val < 2048 := by have := q.isLt; omega
  refine (Point.point_eq (iblk m c 0 t) (iblk m c 1 t) (iblk m c 2 t) (iblk m c 3 t)
    (m ((c : Thread nD τ).loc main_arg0)) (m ((c : Thread nD τ).loc main_arg1)) (m ((c : Thread nD τ).loc main_arg2))
    (kappa m c) p q ⟨_, hb⟩ ⟨_, hi⟩
    (fun k => batch_row m c t p k ⟨_, hb⟩ rfl) (fun k => sigma_row m c t q k ⟨_, hi⟩ rfl)
    (fun k => center_row m c t q k ⟨_, hi⟩ rfl) (kappa_col m c t q ⟨_, hi⟩ rfl)).trans ?_
  show Cert.Mahal.negDistAt _ _ _ _ _ _
    = Cert.Mahal.negDistAt _ _ _ _ ((((cfg0.win 4).blk t).view.emb (ix2 p q)) 0) ((((cfg0.win 4).blk t).view.emb (ix2 p q)) 1)
  congr 1
  · exact Fin.ext (by
      show win0_4.index t (0 : Fin 2) * 1024 + p.val = win0_4.index t (0 : Fin 2) * 1024 + 1 * p.val; omega)
  · exact Fin.ext (by
      show win0_4.index t (1 : Fin 2) * 512 + q.val = win0_4.index t (1 : Fin 2) * 512 + 1 * q.val; omega)

/-- An entry of the result is in point `t`'s block iff each coordinate is in the block's range on its axis. -/
theorem mem_blk (t : Fin cfg0.N) (i : S8192x2048.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v4).slice (win0_4.rect t)).set ↔ _
  rw [View.set_slice_whole, Rect.mem_set_unit]
  exact Iff.rfl

/-- Every entry of the result is in some point's block: that of its row block and column block. -/
theorem cover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ := idx_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 512 ≤ (i 1).val ∧ (i 1).val < win0_4.index t (1 : Fin 2) * 512 + 512
    omega

/-- After the run the result array is `result`. -/
theorem final (c : Dev nD) : (dats m 0 c).arrAt 4 cfg0.N = result m c :=
  (dats m 0 c).arrAt_eq_of_cover 4 (result m c) (fun t _ => flushed_eq m c t) cover

/-- The kernel's run: every weakly fair execution ends with the result array at `result`, the arguments unchanged. -/
theorem run : θ_run defs (onTc (τ := τ) (main (F := Ideal))) ⟨m, fun _ => 0, ρ⟩ fun r => ∀ c : Dev nD,
      r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).2.2.1, (h c).2.2.2, (h c).1.trans (final m c),
      (h c).2.1, (h c).2.2.1, (h c).2.2.2⟩)
    (Value.run_blocks m ρ)

end Cert.KernelIdeal.Blocks

end
-- ==== Proof.lean ====
/-
  The negated diagonal Mahalanobis distance of 8192 batch rows to 2048 classes, computed two ways.

  For a batch row `b` and a class `i`, with features `d` ranging over 1024, both programs return

      - ( ( Σ_d x[b,d]·x[b,d]·σ[i,d]  -  2·Σ_d x[b,d]·(σ[i,d]·c[i,d]) )  +  Σ_d (σ[i,d]·c[i,d])·c[i,d] )

  beside the centers `c` and the inverse variances `σ` unchanged. The reference writes it with two whole contractions
  on the host. The kernel tiles the result into 8 × 4 blocks of 1024 × 512, contracts the whole feature axis inside one
  grid point, moves the factor `2` onto `σ` before the contraction, adds the per-class constant (which the host
  operations before the call computed, exactly as the reference does) as a row, and negates as `0 - y`.

  On the extended reals a non-negative real factor distributes over any finite sum and the product is commutative and
  associative, so the two cross terms agree for all inputs (NegDist.lean); a narrowing of the matrix products' operands
  is the identity there. The kernel's array is assembled from its blocks in Point.lean (one stored entry) and
  Blocks.lean (the 32 blocks tile the array); the reference's last stage is read in RefValue.lean. The three frames are
  the generated ones (the reference's is its generated run with the result dropped), and the idealization rewrote
  nothing, so the kernel and its idealization are one text.
-/
import proofs.«163793_j89008902242835_2_alg».proof.Defs
import proofs.«163793_j89008902242835_2_alg».proof.Proof.Gen.Kernel
import proofs.«163793_j89008902242835_2_alg».proof.Proof.Gen.Kernel.Skeleton
import proofs.«163793_j89008902242835_2_alg».proof.Proof.Gen.Kernel.Launch
import proofs.«163793_j89008902242835_2_alg».proof.Proof.Gen.Kernel.Points
import proofs.«163793_j89008902242835_2_alg».proof.Proof.Gen.Kernel.Frame
import proofs.«163793_j89008902242835_2_alg».proof.Proof.Gen.KernelIdeal
import proofs.«163793_j89008902242835_2_alg».proof.Proof.Gen.KernelIdeal.Skeleton
import proofs.«163793_j89008902242835_2_alg».proof.Proof.Gen.KernelIdeal.Launch
import proofs.«163793_j89008902242835_2_alg».proof.Proof.Gen.KernelIdeal.Points
import proofs.«163793_j89008902242835_2_alg».proof.Proof.Gen.KernelIdeal.Frame
import proofs.«163793_j89008902242835_2_alg».proof.Proof.Gen.ReferenceIdeal
import proofs.«163793_j89008902242835_2_alg».proof.Proof.Gen.Pre_finite_inputs
import proofs.«163793_j89008902242835_2_alg».proof.Proof.Gen.KernelIdeal.Value
import proofs.«163793_j89008902242835_2_alg».proof.Proof.Gen.ReferenceIdeal.Run
import proofs.«163793_j89008902242835_2_alg».proof.Proof.Gen.ReferenceIdeal.Read
import proofs.«163793_j89008902242835_2_alg».proof.Proof.NegDist
import proofs.«163793_j89008902242835_2_alg».proof.Proof.RefValue
import proofs.«163793_j89008902242835_2_alg».proof.Proof.Point
import proofs.«163793_j89008902242835_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => ⟨(h c).2.2.2.1, (h c).2.2.2.2.1, (h c).2.2.2.2.2⟩)
    (Cert.ReferenceIdeal.Value.run (F := Ideal) m ρ)

/-- The idealization rewrote no operation. -/
theorem preserves : Cert.preserves_Kernel_KernelIdeal := trivial

/-- From memories that agree on the three arguments both programs end with the centers, the inverse variances and
    the array of negated distances: the kernel's by its blocks, the reference's by its last stage, and the per-class
    constants of the two are the same host sum of the same arrays. -/
theorem algebraic : Cert.algebraic_KernelIdeal_ReferenceIdeal := by
  intro m ρ m' ρ' _ hagree
  refine ⟨_, _, _, Cert.KernelIdeal.Blocks.run m ρ, ?_⟩
  refine (θ_run Cert.ReferenceIdeal.defs _ _).mono (fun _ h c => ?_)
    (Cert.ReferenceIdeal.Value.run (F := Ideal) m' ρ')
  obtain ⟨a0, a1, a2⟩ := hagree c
  refine ⟨(h c).1.trans a1, (h c).2.1.trans a2, (h c).2.2.1.trans ?_, (h c).2.2.2.1, (h c).2.2.2.2.1, (h c).2.2.2.2.2⟩
  rw [Cert.ReferenceIdeal.Read.val_main_v13_eq, Cert.ReferenceIdeal.RefValue.result_eq, a0, a1, a2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
